-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S32x512 : Shape := ⟨2, ![32, 512]⟩
abbrev S512x32 : Shape := ⟨2, ![512, 32]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S32x512x64x64 .f32) (main_arg1 : FVec F S32x512 .f32) (main_arg2 : FVec F S512x32 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S32x512x64x64 : Shape := ⟨4, ![32, 512, 64, 64]⟩
abbrev S32x512 : Shape := ⟨2, ![32, 512]⟩
abbrev S512x32 : Shape := ⟨2, ![512, 32]⟩
abbrev S32x512x4096 : Shape := ⟨3, ![32, 512, 4096]⟩
abbrev S8x128x4096 : Shape := ⟨3, ![8, 128, 4096]⟩
abbrev S8x128 : Shape := ⟨2, ![8, 128]⟩
abbrev S32x32 : Shape := ⟨2, ![32, 32]⟩
abbrev S_ : Shape := ⟨0, ![]⟩
abbrev S32x512x1 : Shape := ⟨3, ![32, 512, 1]⟩
abbrev S32x8x4096 : Shape := ⟨3, ![32, 8, 4096]⟩
abbrev S32x8x1 : Shape := ⟨3, ![32, 8, 1]⟩

abbrev nBuf : Space → Nat
  | .hbm => 22
  | .vmem => 10
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S512x32, .f32⟩
  | .hbm, ⟨3, _⟩ => ⟨S32x512x4096, .f32⟩
  | .hbm, ⟨4, _⟩ => ⟨S32x512, .f32⟩
  | .hbm, ⟨5, _⟩ => ⟨S32x32, .f32⟩
  | .hbm, ⟨6, _⟩ => ⟨S_, .f32⟩
  | .hbm, ⟨7, _⟩ => ⟨S32x32, .f32⟩
  | .hbm, ⟨8, _⟩ => ⟨S32x32, .f32⟩
  | .hbm, ⟨9, _⟩ => ⟨S32x512, .f32⟩
  | .hbm, ⟨10, _⟩ => ⟨S32x512, .f32⟩
  | .hbm, ⟨11, _⟩ => ⟨S32x512, .f32⟩
  | .hbm, ⟨12, _⟩ => ⟨S_, .f32⟩
  | .hbm, ⟨13, _⟩ => ⟨S32x512, .f32⟩
  | .hbm, ⟨14, _⟩ => ⟨S32x512, .f32⟩
  | .hbm, ⟨15, _⟩ => ⟨S_, .f32⟩
  | .hbm, ⟨16, _⟩ => ⟨S32x512, .f32⟩
  | .hbm, ⟨17, _⟩ => ⟨S32x512, .f32⟩
  | .hbm, ⟨18, _⟩ => ⟨S32x512x4096, .f32⟩
  | .hbm, ⟨19, _⟩ => ⟨S32x512x1, .f32⟩
  | .hbm, ⟨20, _⟩ => ⟨S32x512x4096, .f32⟩
  | .hbm, ⟨21, _⟩ => ⟨S32x512x64x64, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S32x8x4096, .f32⟩
  | .local _ .vmem, ⟨5, _⟩ => ⟨S32x8x4096, .f32⟩
  | .local _ .vmem, ⟨6, _⟩ => ⟨S32x8x1, .f32⟩
  | .local _ .vmem, ⟨7, _⟩ => ⟨S32x8x1, .f32⟩
  | .local _ .vmem, ⟨8, _⟩ => ⟨S32x8x4096, .f32⟩
  | .local _ .vmem, ⟨9, _⟩ => ⟨S32x8x4096, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S32x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x8x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x512x64x64_S32x512x4096 : S32x512x64x64.ShapeCasts S32x512x4096
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  bcast_S_S32x32 : S_.BroadcastsInDim S32x32 (![] : Fin 0 → Fin S32x32.rank)
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  inb_S32x8x4096_S32x8x4096_0_0_0 : ∀ a, (![0, 0, 0] : Fin 3 → Nat) a + S32x8x4096.size a ≤ S32x8x4096.size a
  h_S32x8x4096 : 0 < S32x8x4096.numel
  shapeCasts_S32x8x4096_S32x8x4096 : S32x8x4096.ShapeCasts S32x8x4096
  inb_S32x8x1_S32x8x1_0_0_0 : ∀ a, (![0, 0, 0] : Fin 3 → Nat) a + S32x8x1.size a ≤ S32x8x1.size a
  h_S32x8x1 : 0 < S32x8x1.numel
  shapeCasts_S32x8x1_S32x8x1 : S32x8x1.ShapeCasts S32x8x1
  broadcasts_S32x8x1_S32x8x4096 : S32x8x1.Broadcasts S32x8x4096
  shapeCasts_S32x512x4096_S32x512x64x64 : S32x512x4096.ShapeCasts S32x512x64x64
  dot_S32x512_S32x512_S32x32_1_1_0_0_n_n_wf : DotDims.WF S32x512 S32x512 S32x32 [1] [1] [0] [0] [] []
  dot_S32x32_S512x32_S32x512_1_1_0_0_n_n_wf : DotDims.WF S32x32 S512x32 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S32x512x4096.size a
  hwx0_0 : ∀ i : grid0.Coords, EltTy.bits .f32 = 32 ∨ (Rect.block (s := S32x512x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x8x4096.size a ≤ S32x512x4096.size a
  hwx1_0 : ∀ i : grid1.Coords, EltTy.bits .f32 = 32 ∨ (Rect.block (s := S32x512x4096) S32x8x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x8x1.size a ≤ S32x512x1.size a
  hwx1_1 : ∀ i : grid1.Coords, EltTy.bits .f32 = 32 ∨ (Rect.block (s := S32x512x1) S32x8x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x8x4096.size a ≤ S32x512x4096.size a
  hwx1_2 : ∀ i : grid1.Coords, EltTy.bits .f32 = 32 ∨ (Rect.block (s := S32x512x4096) S32x8x4096.size (cc1_transform_2 i) (hinb1_2 i)).WholeWords (EltTy.packing .f32)

variable [Facts₀]

def dot_S32x512_S32x512_S32x32_1_1_0_0_n_n : DotDims S32x512 S32x512 S32x32 where
  lhsContracting := [1]
  rhsContracting := [1]
  lhsNonContracting := [0]
  rhsNonContracting := [0]
  lhsBatch := []
  rhsBatch := []
  wf := dot_S32x512_S32x512_S32x32_1_1_0_0_n_n_wf
def dot_S32x32_S512x32_S32x512_1_1_0_0_n_n : DotDims S32x32 S512x32 S32x512 where
  lhsContracting := [1]
  rhsContracting := [1]
  lhsNonContracting := [0]
  rhsNonContracting := [0]
  lhsBatch := []
  rhsBatch := []
  wf := dot_S32x32_S512x32_S32x512_1_1_0_0_n_n_wf

abbrev win0_0 : Pipeline.Window sig grid0 :=
  Pipeline.Window.ofSpec (Memref.whole main_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v11) S32x8x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S32x8x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S32x8x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x512x64x64 : Shape := ⟨4, ![32, 512, 64, 64]⟩
abbrev S32x512 : Shape := ⟨2, ![32, 512]⟩
abbrev S512x32 : Shape := ⟨2, ![512, 32]⟩
abbrev S_ : Shape := ⟨0, ![]⟩
abbrev S32x32 : Shape := ⟨2, ![32, 32]⟩
abbrev S32x512x1x1 : Shape := ⟨4, ![32, 512, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S512x32, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x32, .f32⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S32x512, .f32⟩
  | .hbm, ⟨13, _⟩ => ⟨S32x512, .f32⟩
  | .hbm, ⟨14, _⟩ => ⟨S32x512, .f32⟩
  | .hbm, ⟨15, _⟩ => ⟨S_, .f32⟩
  | .hbm, ⟨16, _⟩ => ⟨S32x512, .f32⟩
  | .hbm, ⟨17, _⟩ => ⟨S32x512, .f32⟩
  | .hbm, ⟨18, _⟩ => ⟨S_, .f32⟩
  | .hbm, ⟨19, _⟩ => ⟨S32x512, .f32⟩
  | .hbm, ⟨20, _⟩ => ⟨S32x512, .f32⟩
  | .hbm, ⟨21, _⟩ => ⟨S32x512x1x1, .f32⟩
  | .hbm, ⟨22, _⟩ => ⟨S32x512x64x64, .f32⟩
  | .hbm, ⟨23, _⟩ => ⟨S32x512x64x64, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S32x512x64x64_S32x512_d2_3 : S32x512x64x64.ReducesTo [2, 3] S32x512
  h_S_ : 0 < S_.numel
  bcast_S_S32x512 : S_.BroadcastsInDim S32x512 (![] : Fin 0 → Fin S32x512.rank)
  bcast_S_S32x32 : S_.BroadcastsInDim S32x32 (![] : Fin 0 → Fin S32x32.rank)
  bcast_S32x512_S32x512x1x1_0_1 : S32x512.BroadcastsInDim S32x512x1x1 (![0, 1] : Fin 2 → Fin S32x512x1x1.rank)
  bcast_S32x512x1x1_S32x512x64x64_0_1_2_3 : S32x512x1x1.BroadcastsInDim S32x512x64x64 (![0, 1, 2, 3] : Fin 4 → Fin S32x512x64x64.rank)
  dot_S32x512_S32x512_S32x32_1_1_0_0_n_n_wf : DotDims.WF S32x512 S32x512 S32x32 [1] [1] [0] [0] [] []
  dot_S32x32_S512x32_S32x512_1_1_0_0_n_n_wf : DotDims.WF S32x32 S512x32 S32x512 [1] [1] [0] [0] [] []

variable [Facts₀]

def dot_S32x512_S32x512_S32x32_1_1_0_0_n_n : DotDims S32x512 S32x512 S32x32 where
  lhsContracting := [1]
  rhsContracting := [1]
  lhsNonContracting := [0]
  rhsNonContracting := [0]
  lhsBatch := []
  rhsBatch := []
  wf := dot_S32x512_S32x512_S32x32_1_1_0_0_n_n_wf
def dot_S32x32_S512x32_S32x512_1_1_0_0_n_n : DotDims S32x32 S512x32 S32x512 where
  lhsContracting := [1]
  rhsContracting := [1]
  lhsNonContracting := [0]
  rhsNonContracting := [0]
  lhsBatch := []
  rhsBatch := []
  wf := dot_S32x32_S512x32_S32x512_1_1_0_0_n_n_wf

class Facts : Prop extends Facts₀ where

variable [Facts]
-- ==== Proof.KernelRun.lean ====
/-
  The idealized kernel's run with EVERY unscoped buffer named at its end.

  The program is seven segments: a reshape, the pooling pipeline, three stretches of host operations (the two
  matrix products, the rectifier, the logistic gate, a second reshape and the gate as a column), the scaling
  pipeline, and the reshape back. The contents of the TensorCore's buffers at each boundary are a fold through
  the program from the launch memory; the last of them is `Gen.W7`. Run from any memory with zero counters, every
  weakly fair execution ends with each unscoped buffer holding what that fold says, so in particular the result
  buffer and the three arguments.
-/
import proofs.«148415_j62569083568766_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of each
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at the result buffer and the three arguments: the result at the last boundary's contents, the
    arguments as launched (no segment writes one). -/
theorem run_result : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)
    (run_all m ρ)

end Cert.KernelIdeal.Whole

end
-- ==== Proof.Spec.lean ====
/-
  The mathematics of a squeeze-and-excite gate over an array x of 32 × 512 channels, each a 64 × 64 image.

  Each channel is averaged over its 4096 positions; the averages go through two small matrix products, a rectifier
  between them and a logistic function after them; the resulting gate g(b, c) multiplies every position of channel
  (b, c). One program averages by dividing the channel's sum by 4096 and sums over the two image axes; the other
  lays each image out as one row of 4096 entries, sums along the row and multiplies by 2^-12. On the extended reals
  the two averages agree at every input, finite or not: a sum over the 64 × 64 positions is the sum over the 4096
  row entries in row-major order (addition is commutative and associative), and dividing by the real number 4096
  is multiplying by its reciprocal, whose f32 pattern is exact.

  Stated here over literal shapes and no program: the two averages' meeting point, the row-major regrouping of a
  channel's sum, the pooled array and the scaled array as functions of their inputs, index by index.
-/
import Idealize.ShloMosaic.PureOps.Ideal
import Idealize.ShloMosaic.PureOps.Ideal.Laws
import Idealize.ShloMosaic.Lib.ValueIdx
import Idealize.ShloMosaic.Lib.Pipeline.Value

noncomputable section

namespace Cert.ChannelGate

open Idealize.ShloMosaic Idealize.ShloMosaic.ValueIdx

/-- The input: batch, channel, image row, image column. -/
abbrev Img4 : Shape := ⟨4, ![32, 512, 64, 64]⟩
/-- The input with each image as one row of 4096. -/
abbrev Img3 : Shape := ⟨3, ![32, 512, 4096]⟩
/-- One number per channel. -/
abbrev Chan : Shape := ⟨2, ![32, 512]⟩
/-- One number per channel, as a column. -/
abbrev ChanCol : Shape := ⟨3, ![32, 512, 1]⟩

/-! ## The two spellings of "divide by 4096" -/

/-- The f32 pattern of 4096.0 is the real number 4096. -/
theorem word_4096 : Ideal.ofBits .f32 0x45800000#32 = ((4096 : ℝ) : EReal) := by
  simp [Ideal.ofBits, Ideal.ieee, -EReal.coe_mul]; norm_num

/-- The f32 pattern of 2^-12 is exactly the reciprocal of 4096. -/
theorem word_inv_4096 : Ideal.ofBits .f32 0x39800000#32 = ((1 / 4096 : ℝ) : EReal) := by
  simp [Ideal.ofBits, Ideal.ieee, -EReal.coe_mul]; norm_num

/-- A sum started from the zero pattern and divided by 4096 is the sum times 2^-12, for every extended real sum:
    division by a nonzero real is multiplication by its reciprocal also at the infinities. -/
theorem mean_law (s : EReal) :
    Ideal.div (Ideal.ofBits .f32 0x00000000#32 + s) (Ideal.ofBits .f32 0x45800000#32) = s * Ideal.ofBits .f32 0x39800000#32 := by
  rw [Ideal.ofBits_zero_f32, zero_add, word_4096, word_inv_4096, Ideal.div_coe (by norm_num : (4096 : ℝ) ≠ 0)]

/-! ## An image's positions in row-major order -/

/-- The image row of the k-th entry of a 4096-row. -/
def rowOf (k : Fin 4096) : Fin 64 := ⟨k.val / 64, by have := k.isLt; omega⟩
/-- Its image column. -/
def colOf (k : Fin 4096) : Fin 64 := ⟨k.val % 64, by have := k.isLt; omega⟩

/-- The sum of one channel's entries, taken over all positions of the four-axis array that lie in the channel, is the
    sum over k < 4096 of the entry at image position (k / 64, k % 64): the map k ↦ (k / 64, k % 64) is a bijection
    from the 4096 row entries onto the channel's positions. In any commutative additive monoid. -/
theorem sum_channel {M : Type*} [AddCommMonoid M] (f : Img4.Idx → M) (b : Fin 32) (c : Fin 512) :
    ∑ i ∈ Finset.univ.filter (fun i : Img4.Idx => (i 0).val = b.val ∧ (i 1).val = c.val), f i
      = ∑ k : Fin 4096, f (ix4 b c (rowOf k) (colOf k)) := by
  symm
  refine Finset.sum_nbij' (fun k => ix4 b c (rowOf k) (colOf k))
    (fun i => ⟨(i 2).val * 64 + (i 3).val, by
      have h2 : (i 2).val < 64 := (i 2).isLt
      have h3 : (i 3).val < 64 := (i 3).isLt
      omega⟩) ?_ ?_ ?_ ?_ ?_
  · intro k _
    exact Finset.mem_filter.mpr ⟨Finset.mem_univ _, rfl, rfl⟩
  · intro i _; exact Finset.mem_univ _
  · intro k _
    apply Fin.ext
    show (k.val / 64) * 64 + k.val % 64 = k.val
    omega
  · intro i hi
    obtain ⟨h0, h1⟩ := (Finset.mem_filter.mp hi).2
    have h2 : (i 2).val < 64 := (i 2).isLt
    have h3 : (i 3).val < 64 := (i 3).isLt
    funext a
    apply Fin.ext
    match a with
    | ⟨0, _⟩ => exact h0.symm
    | ⟨1, _⟩ => exact h1.symm
    | ⟨2, _⟩ => show ((i 2).val * 64 + (i 3).val) / 64 = (i 2).val; omega
    | ⟨3, _⟩ => show ((i 2).val * 64 + (i 3).val) % 64 = (i 3).val; omega
  · intro k _; rfl

/-- The row entry of image position (h, w). -/
def flat (h w : Fin 64) : Fin 4096 := ⟨h.val * 64 + w.val, by have := h.isLt; have := w.isLt; omega⟩

theorem rowOf_flat (h w : Fin 64) : rowOf (flat h w) = h :=
  Fin.ext (by show (h.val * 64 + w.val) / 64 = h.val; have := w.isLt; omega)
theorem colOf_flat (h w : Fin 64) : colOf (flat h w) = w :=
  Fin.ext (by show (h.val * 64 + w.val) % 64 = w.val; have := w.isLt; omega)

/-! ## The layout operations of the two programs, read at an index -/

/-- One number per channel, as a 1 × 1 image. -/
abbrev ChanImg : Shape := ⟨4, ![32, 512, 1, 1]⟩

/-- The input reshaped to rows of 4096, at row entry k of channel (b, c), is the input at image position (k / 64, k % 64):
    the two indices have the same row-major position. -/
theorem cast_rows (x : Img4.Idx → EReal) (hc : Img4.ShapeCasts Img3) (b : Fin 32) (c : Fin 512) (k : Fin 4096) :
    shapeCast Img3 x hc (ix3 b c k) = x (ix4 b c (rowOf k) (colOf k)) :=
  shapeCast_apply x hc (ix3 b c k) (ix4 b c (rowOf k) (colOf k)) (by
    rw [Shape.rowMajor_val_four, Shape.rowMajor_val_three]
    show ((b.val * 512 + c.val) * 64 + k.val / 64) * 64 + k.val % 64 = (b.val * 512 + c.val) * 4096 + k.val
    omega)

/-- An array of rows of 4096 reshaped to images, at image position (h, w), is the array at row entry 64 h + w. -/
theorem cast_images (y : Img3.Idx → EReal) (hc : Img3.ShapeCasts Img4) (b : Fin 32) (c : Fin 512) (h w : Fin 64) :
    shapeCast Img4 y hc (ix4 b c h w) = y (ix3 b c (flat h w)) :=
  shapeCast_apply y hc (ix4 b c h w) (ix3 b c (flat h w)) (by
    rw [Shape.rowMajor_val_four, Shape.rowMajor_val_three]
    show (b.val * 512 + c.val) * 4096 + (h.val * 64 + w.val) = ((b.val * 512 + c.val) * 64 + h.val) * 64 + w.val
    omega)

/-- A per-channel array laid out as a column, at (b, c, 0), is the array at (b, c). -/
theorem column_apply (g : Chan.Idx → EReal) (hb : Chan.BroadcastsInDim ChanCol ![0, 1]) (b : Fin 32) (c : Fin 512) :
    broadcastInDim ChanCol ![0, 1] hb g (ix3 b c (0 : Fin 1)) = g (ix2 b c) :=
  broadcastInDim_apply _ hb g (ix3 b c (0 : Fin 1)) (ix2 b c) fun a => by
    match a with
    | ⟨0, _⟩ => rfl
    | ⟨1, _⟩ => rfl

/-- A per-channel array laid out as 1 × 1 images, at (b, c, 0, 0), is the array at (b, c). -/
theorem unit_image_apply (g : Chan.Idx → EReal) (hb : Chan.BroadcastsInDim ChanImg ![0, 1]) (b : Fin 32) (c : Fin 512) :
    broadcastInDim ChanImg ![0, 1] hb g (ix4 b c (0 : Fin 1) (0 : Fin 1)) = g (ix2 b c) :=
  broadcastInDim_apply _ hb g (ix4 b c (0 : Fin 1) (0 : Fin 1)) (ix2 b c) fun a => by
    match a with
    | ⟨0, _⟩ => rfl
    | ⟨1, _⟩ => rfl

/-- 1 × 1 images spread over 64 × 64 images, at (b, c, h, w), are the 1 × 1 image's one entry. -/
theorem spread_apply (y : ChanImg.Idx → EReal) (hb : ChanImg.BroadcastsInDim Img4 ![0, 1, 2, 3]) (b : Fin 32) (c : Fin 512) (h w : Fin 64) :
    broadcastInDim Img4 ![0, 1, 2, 3] hb y (ix4 b c h w) = y (ix4 b c (0 : Fin 1) (0 : Fin 1)) :=
  broadcastInDim_apply _ hb y (ix4 b c h w) (ix4 b c (0 : Fin 1) (0 : Fin 1)) fun a => by
    match a with
    | ⟨0, _⟩ => rfl
    | ⟨1, _⟩ => rfl
    | ⟨2, _⟩ => rfl
    | ⟨3, _⟩ => rfl

/-! ## The pooled array and the scaled array -/

/-- Channel (b, c)'s average, the second way: the row's sum times 2^-12. -/
def pooledAt (x : Img3.Idx → EReal) (b : Fin 32) (c : Fin 512) : EReal :=
  (∑ k : Fin 4096, x (ix3 b c k)) * Ideal.ofBits .f32 0x39800000#32

/-- The array of all channels' averages. -/
def pooled (x : Img3.Idx → EReal) : Chan.Idx → EReal :=
  fun j => pooledAt x ⟨(j 0).val, (j 0).isLt⟩ ⟨(j 1).val, (j 1).isLt⟩

theorem pooled_ix2 (x : Img3.Idx → EReal) (b : Fin 32) (c : Fin 512) : pooled x (ix2 b c) = pooledAt x b c := rfl

/-- Every entry of channel (b, c) multiplied by the channel's gate, the gate given as a column. -/
def scaled (x : Img3.Idx → EReal) (g : ChanCol.Idx → EReal) : Img3.Idx → EReal :=
  fun i => x i * g (ix3 (⟨(i 0).val, (i 0).isLt⟩ : Fin 32) (⟨(i 1).val, (i 1).isLt⟩ : Fin 512) (0 : Fin 1))

theorem scaled_ix3 (x : Img3.Idx → EReal) (g : ChanCol.Idx → EReal) (b : Fin 32) (c : Fin 512) (k : Fin 4096) :
    scaled x g (ix3 b c k) = x (ix3 b c k) * g (ix3 b c (0 : Fin 1)) := rfl

end Cert.ChannelGate

end
-- ==== Proof.Region0.lean ====
/-
  The pooling pipeline's output array, at the extended reals.

  The grid has 4 × 4 points; point (i, j) is handed rows 8 i … 8 i + 7 and channels 128 j … 128 j + 127 of the input
  laid out as rows of 4096, sums each row and multiplies the sum by 2^-12, and writes the 8 × 128 results to the same
  rows and channels of the output. So what a point writes back is its block of ONE array, the array of every channel's
  average, and the sixteen blocks tile the 32 × 512 output: after the pipeline the output IS that array.
-/
import proofs.«148415_j62569083568766_2_alg».proof.Proof.Gen.KernelIdeal.Frame
import proofs.«148415_j62569083568766_2_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Pool

open Cert.KernelIdeal Cert.KernelIdeal.Gen Cert.ChannelGate
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The body's stored value at entry (p, q) of its 8 × 128 block: the sum of row (p, q) of the loaded 8 × 128 × 4096
    block, times 2^-12. The lane reduction over the last axis is a plain sum over that axis's 4096 coordinates. -/
theorem pay_entry (x0 : Vec Ideal S8x128x4096 .f32) (p : Fin 8) (q : Fin 128) :
    k0_pay1 (F := Ideal) x0 (ix2 p q) = (∑ k : Fin 4096, x0 (ix3 p q k)) * Ideal.ofBits .f32 0x39800000#32 := by
  unfold k0_pay1
  dsimp only
  rw [Idealize.ShloMosaic.shapeCast_self]
  refine congrArg (· * Ideal.ofBits .f32 0x39800000#32) ?_
  refine (Ideal.multiReduction_add_single x0 0x00000000#32 reduces_S8x128x4096_S8x128 (.inl rfl) rfl (ix2 p q)).trans ?_
  show ∑ k : Fin 4096, x0 (reduces_S8x128x4096_S8x128.lift (ix2 p q) k) = _
  refine Finset.sum_congr rfl fun k _ => congrArg x0 (funext fun a => Fin.ext ?_)
  match a with
  | ⟨0, _⟩ => rfl
  | ⟨1, _⟩ => rfl
  | ⟨2, _⟩ => rfl

/-- The printed index maps, decided over the sixteen points: the input block moves with the output block on the row and
    channel axes and stays at 0 on the axis of 4096; the output's block indices stay below 4. -/
theorem idx_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 3 ∧ win0_1.index t (1 : Fin 2) ≤ 3 :=
  (by decide +kernel : ∀ t : Fin grid0.N, _)

/-- Every one of the 4 × 4 output blocks is some point's. -/
theorem idx_onto : ∀ (q0 : Fin 4) (q1 : Fin 4), ∃ t : Fin cfg0.N, win0_1.index t = ![q0.val, q1.val] :=
  (by decide +kernel : ∀ (q0 : Fin 4) (q1 : Fin 4), ∃ t : Fin grid0.N, win0_1.index t = ![q0.val, q1.val])

/-- What point t writes back is block t of the array of all channels' averages of the input as the region finds it. -/
theorem flushed_eq (c : Dev nD) (t : Fin cfg0.N) :
    (dat0 V c).flushed 1 t = ((cfg0.win 1).blk t).view.read (Elt Ideal) (pooled (V c main_v0)) := by
  show (cfg0.win 1).cut (grid0.coords t) ((dat0 V c).after 1 t) = _
  rw [after0_1]
  unfold out0_1
  rw [View.canon_unit_zero zero2]
  simp only [View.ld_unit_zero (S := S8x128x4096) zero3]
  obtain ⟨e0, e1, e2, e3, e4⟩ := idx_facts t
  funext j
  obtain ⟨p, q, rfl⟩ : ∃ (p : Fin 8) (q : Fin 128), j = ix2 p q := ⟨j 0, j 1, eq_ix2 j⟩
  show k0_pay1 (iblk0 V c 0 t) (ix2 p q) = pooled (V c main_v0) (((cfg0.win 1).blk t).view.emb (ix2 p q))
  refine (pay_entry (iblk0 V c 0 t) p q).trans ?_
  refine congrArg (· * Ideal.ofBits .f32 0x39800000#32) (Finset.sum_congr rfl fun k _ => ?_)
  show V c main_v0 (((cfg0.win 0).blk t).view.emb (ix3 p q k)) = V c main_v0 _
  refine congrArg (V c main_v0) (funext fun a => Fin.ext ?_)
  match a with
  | ⟨0, _⟩ => show win0_0.index t (0 : Fin 3) * 8 + 1 * p.val = win0_1.index t (0 : Fin 2) * 8 + 1 * p.val; omega
  | ⟨1, _⟩ => show win0_0.index t (1 : Fin 3) * 128 + 1 * q.val = win0_1.index t (1 : Fin 2) * 128 + 1 * q.val; omega
  | ⟨2, _⟩ => show win0_0.index t (2 : Fin 3) * 4096 + 1 * k.val = k.val; omega

/-- An index of the output is in point t's block iff each coordinate is in the block's range on its axis. -/
theorem mem_blk (t : Fin cfg0.N) (i : S32x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- The sixteen blocks cover the output: entry (r, ch) is in the block of the point with block indices (r / 8, ch / 128). -/
theorem cover (i : S32x512.Idx) : ∃ t : Fin cfg0.N, (cfg0.win 1).flush t = true ∧ i ∈ ((cfg0.win 1).blk t).view.set := by
  have hi0 : (i 0).val < 32 := (i 0).isLt
  have hi1 : (i 1).val < 512 := (i 1).isLt
  obtain ⟨t, ht⟩ := idx_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- After the pooling pipeline its output array holds every channel's average of the input array it was entered with. -/
theorem array_eq (c : Dev nD) : (dat0 V c).arrAt 1 cfg0.N = pooled (V c main_v0) :=
  (dat0 V c).arrAt_eq_of_cover 1 (pooled (V c main_v0)) (fun t _ => flushed_eq V c t) cover

end Cert.KernelIdeal.Pool

end
-- ==== Proof.Region1.lean ====
/-
  The scaling pipeline's output array, at the extended reals.

  The grid has 64 points; point j is handed channels 8 j … 8 j + 7 of all 32 rows: the input (rows of 4096) and the gate
  column, and writes back, for every entry of those channels, the entry times its channel's gate. So what a point
  writes back is its block of ONE array, the input scaled channel by channel, and the 64 blocks tile the output.
-/
import proofs.«148415_j62569083568766_2_alg».proof.Proof.Gen.KernelIdeal.Frame
import proofs.«148415_j62569083568766_2_alg».proof.Proof.Spec
import Idealize.ShloMosaic.Lib.Pipeline.Value
import Idealize.ShloMosaic.Lib.ValueIdx
set_option maxRecDepth 16384

noncomputable section

namespace Cert.KernelIdeal.Scale

open Cert.KernelIdeal Cert.KernelIdeal.Gen Cert.ChannelGate
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl

/-- The body's stored value at entry (b, r, k) of its 32 × 8 × 4096 block: the loaded entry times entry (b, r) of the
    loaded gate column, which the body broadcasts along the axis of 4096. -/
theorem pay_entry (x0 : Vec Ideal S32x8x4096 .f32) (x1 : Vec Ideal S32x8x1 .f32) (b : Fin 32) (r : Fin 8) (k : Fin 4096) :
    k1_pay1 (F := Ideal) x0 x1 (ix3 b r k) = x0 (ix3 b r k) * x1 (ix3 b r (0 : Fin 1)) := by
  unfold k1_pay1
  rw [Idealize.ShloMosaic.shapeCast_self, Idealize.ShloMosaic.shapeCast_self, Idealize.ShloMosaic.shapeCast_self]
  refine congrArg (x0 (ix3 b r k) * ·) ?_
  refine broadcastTo_apply x1 broadcasts_S32x8x1_S32x8x4096 (ix3 b r k) (ix3 b r (0 : Fin 1)) fun a => ?_
  match a with
  | ⟨0, _⟩ => rfl
  | ⟨1, _⟩ => rfl
  | ⟨2, _⟩ => rfl

/-- An entry of the input times an entry of the gate column is the scaled array's entry, when the first sits where the
    scaled array is read and the second at that entry's row and channel. -/
theorem block_entry (X : S32x512x4096.Idx → EReal) (G : S32x512x1.Idx → EReal) (i0 i2 : S32x512x4096.Idx) (i1 : S32x512x1.Idx)
    (h0 : i0 = i2) (h1 : i1 = ix3 (⟨(i2 0).val, (i2 0).isLt⟩ : Fin 32) (⟨(i2 1).val, (i2 1).isLt⟩ : Fin 512) (0 : Fin 1)) :
    X i0 * G i1 = scaled X G i2 := by
  subst h0 h1; rfl

/-- The printed index maps, decided over the 64 points: both input blocks move with the output block (all three at row
    block 0, channel block j, last-axis block 0). -/
theorem idx_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = win1_2.index t (1 : Fin 3)
    ∧ win1_1.index t (2 : Fin 3) = 0
    ∧ win1_2.index t (0 : Fin 3) = 0 ∧ win1_2.index t (1 : Fin 3) ≤ 63 ∧ win1_2.index t (2 : Fin 3) = 0 :=
  (by decide +kernel : ∀ t : Fin grid1.N, _)

/-- Every one of the 64 channel blocks is some point's. -/
theorem idx_onto : ∀ (q1 : Fin 64), ∃ t : Fin cfg1.N, win1_2.index t = ![0, q1.val, 0] :=
  (by decide +kernel : ∀ (q1 : Fin 64), ∃ t : Fin grid1.N, win1_2.index t = ![0, q1.val, 0])

/-- What point t writes back is block t of the input scaled by the gate column, both as the region finds them. -/
theorem flushed_eq (c : Dev nD) (t : Fin cfg1.N) :
    (dat1 V c).flushed 2 t = ((cfg1.win 2).blk t).view.read (Elt Ideal) (scaled (V c main_v11) (V c main_v12)) := by
  show (cfg1.win 2).cut (grid1.coords t) ((dat1 V c).after 2 t) = _
  rw [after1_2]
  unfold out1_2
  rw [View.canon_unit_zero zero3]
  simp only [View.ld_unit_zero (S := S32x8x4096) zero3, View.ld_unit_zero (S := S32x8x1) zero3]
  obtain ⟨e0, e1, e2, e3, e4, e5, e6, e7, e8⟩ := idx_facts t
  funext j
  obtain ⟨b, r, k, rfl⟩ : ∃ (b : Fin 32) (r : Fin 8) (k : Fin 4096), j = ix3 b r k := ⟨j 0, j 1, j 2, eq_ix3 j⟩
  show k1_pay1 (iblk1 V c 0 t) (iblk1 V c 1 t) (ix3 b r k) = scaled (V c main_v11) (V c main_v12) (((cfg1.win 2).blk t).view.emb (ix3 b r k))
  refine (pay_entry (iblk1 V c 0 t) (iblk1 V c 1 t) b r k).trans ?_
  refine block_entry (V c main_v11) (V c main_v12) (((cfg1.win 0).blk t).view.emb (ix3 b r k)) (((cfg1.win 2).blk t).view.emb (ix3 b r k))
    (((cfg1.win 1).blk t).view.emb (ix3 b r (0 : Fin 1))) ?_ ?_
  · funext a; apply Fin.ext
    match a with
    | ⟨0, _⟩ => show win1_0.index t (0 : Fin 3) * 32 + 1 * b.val = win1_2.index t (0 : Fin 3) * 32 + 1 * b.val; omega
    | ⟨1, _⟩ => show win1_0.index t (1 : Fin 3) * 8 + 1 * r.val = win1_2.index t (1 : Fin 3) * 8 + 1 * r.val; omega
    | ⟨2, _⟩ => show win1_0.index t (2 : Fin 3) * 4096 + 1 * k.val = win1_2.index t (2 : Fin 3) * 4096 + 1 * k.val; omega
  · funext a; apply Fin.ext
    match a with
    | ⟨0, _⟩ => show win1_1.index t (0 : Fin 3) * 32 + 1 * b.val = win1_2.index t (0 : Fin 3) * 32 + 1 * b.val; omega
    | ⟨1, _⟩ => show win1_1.index t (1 : Fin 3) * 8 + 1 * r.val = win1_2.index t (1 : Fin 3) * 8 + 1 * r.val; omega
    | ⟨2, _⟩ => show win1_1.index t (2 : Fin 3) * 1 + 1 * 0 = 0; omega

/-- An index of the output is in point t's block iff each coordinate is in the block's range on its axis. -/
theorem mem_blk (t : Fin cfg1.N) (i : S32x512x4096.Idx) :
    i ∈ ((cfg1.win 2).blk t).view.set ↔ ∀ a : Fin 3, win1_2.index t a * S32x8x4096.size a ≤ (i a).val ∧ (i a).val < win1_2.index t a * S32x8x4096.size a + S32x8x4096.size a := by
  show i ∈ ((View.whole main_v13).slice (win1_2.rect t)).set ↔ _
  rw [View.set_slice_whole, Rect.mem_set_unit]
  exact Iff.rfl

/-- The 64 blocks cover the output: entry (b, ch, k) is in the block of the point with channel block ch / 8. -/
theorem cover (i : S32x512x4096.Idx) : ∃ t : Fin cfg1.N, (cfg1.win 2).flush t = true ∧ i ∈ ((cfg1.win 2).blk t).view.set := by
  have hi0 : (i 0).val < 32 := (i 0).isLt
  have hi1 : (i 1).val < 512 := (i 1).isLt
  have hi2 : (i 2).val < 4096 := (i 2).isLt
  obtain ⟨t, ht⟩ := idx_onto ⟨(i 1).val / 8, by omega⟩
  have q0 : win1_2.index t (0 : Fin 3) = 0 := congrFun ht 0
  have q1 : win1_2.index t (1 : Fin 3) = (i 1).val / 8 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 32 ≤ (i 0).val ∧ (i 0).val < win1_2.index t (0 : Fin 3) * 32 + 32; omega
  | ⟨1, _⟩ => show win1_2.index t (1 : Fin 3) * 8 ≤ (i 1).val ∧ (i 1).val < win1_2.index t (1 : Fin 3) * 8 + 8; omega
  | ⟨2, _⟩ => show win1_2.index t (2 : Fin 3) * 4096 ≤ (i 2).val ∧ (i 2).val < win1_2.index t (2 : Fin 3) * 4096 + 4096; omega

/-- After the scaling pipeline its output array holds the input array scaled, channel by channel, by the gate column, both
    as the region was entered with them. -/
theorem array_eq (c : Dev nD) : (dat1 V c).arrAt 2 cfg1.N = scaled (V c main_v11) (V c main_v12) :=
  (dat1 V c).arrAt_eq_of_cover 2 (scaled (V c main_v11) (V c main_v12)) (fun t _ => flushed_eq V c t) cover

end Cert.KernelIdeal.Scale

end
-- ==== Proof.KernelValue.lean ====
/-
  The idealized kernel's result as ONE function of its three arguments.

  Reading the fold of buffer contents through the program: the first reshape lays each image out as a row of 4096; the
  pooling pipeline leaves every channel's average (row sum times 2^-12); the host operations between the pipelines
  turn the averages into the gate — a product with the first weights, the rectifier, a product with the second weights,
  then 1 / (1 + exp (−z)) — and lay the gate out as a column beside a second copy of the reshaped input; the scaling
  pipeline leaves the reshaped input scaled channel by channel; the last reshape gives the images their two axes back.
-/
import proofs.«148415_j62569083568766_2_alg».proof.Proof.Gen.KernelIdeal.Frame
import proofs.«148415_j62569083568766_2_alg».proof.Proof.KernelRun
import proofs.«148415_j62569083568766_2_alg».proof.Proof.Region0
import proofs.«148415_j62569083568766_2_alg».proof.Proof.Region1
import Idealize.ShloMosaic.Lib.StableHlo.Run
set_option maxRecDepth 16384

noncomputable section

namespace Cert.KernelIdeal.Whole

open Cert.KernelIdeal Cert.KernelIdeal.Gen Cert.ChannelGate
open Idealize.ShloMosaic Idealize.ShloMosaic.TcCoe Idealize.ShloMosaic.ValueIdx Idealize.SL.Sem
open Idealize.ShloMosaic.Pipeline (Dat)
open Idealize.ShloMosaic.StableHlo

/-- The gate from the pooled averages and the two weight arrays: the host operations between the two pipelines. -/
def gate (v : FVec Ideal S32x512 .f32) (w1 : FVec Ideal S32x512 .f32) (w2 : FVec Ideal S512x32 .f32) : FVec Ideal S32x512 .f32 :=
  Host.divf (F := Ideal) (broadcastInDim S32x512 ![] bcast_S_S32x512 (constant (F := Ideal) S_ .f32 0x3F800000#32))
    (addf (broadcastInDim S32x512 ![] bcast_S_S32x512 (constant (F := Ideal) S_ .f32 0x3F800000#32))
      (Host.exp (F := Ideal) (Host.negf (F := Ideal) (Host.dotGeneral (F := Ideal) dot_S32x32_S512x32_S32x512_1_1_0_0_n_n none
        (maximumf (Host.dotGeneral (F := Ideal) dot_S32x512_S32x512_S32x32_1_1_0_0_n_n none v w1)
          (broadcastInDim S32x32 ![] bcast_S_S32x32 (constant (F := Ideal) S_ .f32 0x00000000#32))) w2))))

/-- The whole program as a function of its arguments. -/
def result (x : FVec Ideal S32x512x64x64 .f32) (w1 : FVec Ideal S32x512 .f32) (w2 : FVec Ideal S512x32 .f32) :
    FVec Ideal S32x512x64x64 .f32 :=
  shapeCast S32x512x64x64
    (scaled (shapeCast S32x512x4096 x shapeCasts_S32x512x64x64_S32x512x4096)
      (broadcastInDim S32x512x1 ![0, 1] bcast_S32x512_S32x512x1_0_1
        (gate (pooled (shapeCast S32x512x4096 x shapeCasts_S32x512x64x64_S32x512x4096)) w1 w2)))
    shapeCasts_S32x512x4096_S32x512x64x64

variable (m : (ℓ : Loc nD τ sig) → Buf (Elt Ideal) ℓ) (ρ : Dev nD → PrngReg)

/-! ## The arguments, read where the pipelines and the host operations find them -/

theorem arg0_entry0 (c : Dev nD) : W1 m ρ c (Proc.devRef .tc main_arg0) = m ((c : Thread nD τ).loc main_arg0) := by
  show StableHlo.after hostOps0 (W0 m ρ c) (Proc.devRef .tc main_arg0) = _
  after_results
theorem arg1_entry0 (c : Dev nD) : W1 m ρ c (Proc.devRef .tc main_arg1) = m ((c : Thread nD τ).loc main_arg1) := by
  show StableHlo.after hostOps0 (W0 m ρ c) (Proc.devRef .tc main_arg1) = _
  after_results
theorem arg2_entry0 (c : Dev nD) : W1 m ρ c (Proc.devRef .tc main_arg2) = m ((c : Thread nD τ).loc main_arg2) := by
  show StableHlo.after hostOps0 (W0 m ρ c) (Proc.devRef .tc main_arg2) = _
  after_results

theorem arg0_exit0 (c : Dev nD) : W2 m ρ c (Proc.devRef .tc main_arg0) = m ((c : Thread nD τ).loc main_arg0) :=
  (W2_of_ne m ρ c main_arg0 (by decide)).trans (arg0_entry0 m ρ c)
theorem arg1_exit0 (c : Dev nD) : W2 m ρ c (Proc.devRef .tc main_arg1) = m ((c : Thread nD τ).loc main_arg1) :=
  (W2_of_ne m ρ c main_arg1 (by decide)).trans (arg1_entry0 m ρ c)
theorem arg2_exit0 (c : Dev nD) : W2 m ρ c (Proc.devRef .tc main_arg2) = m ((c : Thread nD τ).loc main_arg2) :=
  (W2_of_ne m ρ c main_arg2 (by decide)).trans (arg2_entry0 m ρ c)

/-! ## The pooling pipeline -/

/-- It is entered with the input reshaped to rows of 4096. -/
theorem rows_entry0 (c : Dev nD) :
    V1 m ρ c main_v0 = shapeCast S32x512x4096 (m ((c : Thread nD τ).loc main_arg0)) shapeCasts_S32x512x64x64_S32x512x4096 := by
  show StableHlo.after hostOps0 (W0 m ρ c) (Proc.devRef .tc main_v0) = _
  after_results
  rfl

/-- It leaves every channel's average. -/
theorem pooled_exit0 (c : Dev nD) :
    W2 m ρ c (Proc.devRef .tc main_v1)
      = pooled (shapeCast S32x512x4096 (m ((c : Thread nD τ).loc main_arg0)) shapeCasts_S32x512x64x64_S32x512x4096) :=
  (W2_arr m ρ c 1).trans ((Pool.array_eq (V1 m ρ) c).trans (congrArg pooled (rows_entry0 m ρ c)))

/-! ## Between the pipelines -/

/-- The scaling pipeline is entered with the gate of what the pooling pipeline left, as a column, -/
theorem gate_entry1 (c : Dev nD) :
    V5 m ρ c main_v12 = broadcastInDim S32x512x1 ![0, 1] bcast_S32x512_S32x512x1_0_1
      (gate (W2 m ρ c (Proc.devRef .tc main_v1)) (W2 m ρ c (Proc.devRef .tc main_arg1)) (W2 m ρ c (Proc.devRef .tc main_arg2))) := by
  show StableHlo.after hostOps1_2 (StableHlo.after hostOps1_1 (StableHlo.after hostOps1 (W2 m ρ c))) (Proc.devRef .tc main_v12) = _
  after_results
  rfl

/-- and with the input reshaped to rows of 4096 again. -/
theorem rows_entry1 (c : Dev nD) :
    V5 m ρ c main_v11 = shapeCast S32x512x4096 (W2 m ρ c (Proc.devRef .tc main_arg0)) shapeCasts_S32x512x64x64_S32x512x4096 := by
  show StableHlo.after hostOps1_2 (StableHlo.after hostOps1_1 (StableHlo.after hostOps1 (W2 m ρ c))) (Proc.devRef .tc main_v11) = _
  after_results
  rfl

/-! ## The result -/

/-- The last reshape reads what the scaling pipeline left. -/
theorem result_exit (c : Dev nD) :
    W7 m ρ c (Proc.devRef .tc main_v14)
      = shapeCast S32x512x64x64 (W6 m ρ c (Proc.devRef .tc main_v13)) shapeCasts_S32x512x4096_S32x512x64x64 := by
  show StableHlo.after hostOps2 (W6 m ρ c) (Proc.devRef .tc main_v14) = _
  after_results
  rfl

/-- The result buffer's last contents are the program's function of the launch contents of the arguments. -/
theorem result_eq (c : Dev nD) :
    W7 m ρ c (Proc.devRef .tc main_v14)
      = result (m ((c : Thread nD τ).loc main_arg0)) (m ((c : Thread nD τ).loc main_arg1)) (m ((c : Thread nD τ).loc main_arg2)) := by
  rw [result_exit]
  unfold result
  refine congrArg (fun z => shapeCast S32x512x64x64 z shapeCasts_S32x512x4096_S32x512x64x64) ?_
  refine (W6_arr m ρ c 2).trans ((Scale.array_eq (V5 m ρ) c).trans ?_)
  rw [rows_entry1, gate_entry1, arg0_exit0, arg1_exit0, arg2_exit0, pooled_exit0]

/-- Every weakly fair execution of the idealized kernel terminates with the result buffer at `result` of the arguments and
    the arguments unchanged. -/
theorem run : θ_run defs (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_result m ρ)

end Cert.KernelIdeal.Whole

end
-- ==== Proof.ReferenceValue.lean ====
/-
  The idealized reference's result as ONE function of its three arguments, in three named parts: every channel's
  average (the sum over both image axes from the zero pattern, divided by 4096), the gate of the averages (the same
  host operations as the kernel's), and the input times the gate spread over every image position.
-/
import proofs.«148415_j62569083568766_2_alg».proof.Proof.Gen.ReferenceIdeal.Run
import Idealize.ShloMosaic.PureOps.Ideal

noncomputable section

namespace Cert.ReferenceIdeal.Whole

open Cert.ReferenceIdeal Cert.ReferenceIdeal.Gen Idealize.ShloMosaic Idealize.ShloMosaic.TcCoe Idealize.SL.Sem

/-- Every channel's average: the sum over the two image axes divided by 4096. -/
def mean (x : FVec Ideal S32x512x64x64 .f32) : FVec Ideal S32x512 .f32 :=
  Host.divf (F := Ideal)
    (Host.reduceAdd (F := Ideal) x (constant (F := Ideal) S_ .f32 0x00000000#32) reducesTo_S32x512x64x64_S32x512_d2_3 h_S_)
    (broadcastInDim S32x512 ![] bcast_S_S32x512 (constant (F := Ideal) S_ .f32 0x45800000#32))

/-- The gate from the averages and the two weight arrays. -/
def gate (v : FVec Ideal S32x512 .f32) (w1 : FVec Ideal S32x512 .f32) (w2 : FVec Ideal S512x32 .f32) : FVec Ideal S32x512 .f32 :=
  Host.divf (F := Ideal) (broadcastInDim S32x512 ![] bcast_S_S32x512 (constant (F := Ideal) S_ .f32 0x3F800000#32))
    (addf (broadcastInDim S32x512 ![] bcast_S_S32x512 (constant (F := Ideal) S_ .f32 0x3F800000#32))
      (Host.exp (F := Ideal) (Host.negf (F := Ideal) (Host.dotGeneral (F := Ideal) dot_S32x32_S512x32_S32x512_1_1_0_0_n_n none
        (maximumf (Host.dotGeneral (F := Ideal) dot_S32x512_S32x512_S32x32_1_1_0_0_n_n none v w1)
          (broadcastInDim S32x32 ![] bcast_S_S32x32 (constant (F := Ideal) S_ .f32 0x00000000#32))) w2))))

/-- The whole program as a function of its arguments. -/
def result (x : FVec Ideal S32x512x64x64 .f32) (w1 : FVec Ideal S32x512 .f32) (w2 : FVec Ideal S512x32 .f32) :
    FVec Ideal S32x512x64x64 .f32 :=
  mulf x (broadcastInDim S32x512x64x64 ![0, 1, 2, 3] bcast_S32x512x1x1_S32x512x64x64_0_1_2_3
    (broadcastInDim S32x512x1x1 ![0, 1] bcast_S32x512_S32x512x1x1_0_1 (gate (mean x) w1 w2)))

/-- Every weakly fair execution of the idealized reference terminates with the result buffer at `result` of the
    arguments and the arguments unchanged: the generated run, its composed term being `result` by unfolding. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Whole

end
-- ==== Proof.Bridge.lean ====
/-
  The two programs compute one function.

  Index by index, at batch b, channel c, image position (h, w): the reference's entry is x(b, c, h, w) times the gate
  of its averages at (b, c); the kernel's is the reshaped input at row entry 64 h + w of channel (b, c) — the same
  entry of x — times the gate of ITS averages at (b, c). The gates are the same host operations, so the two results
  agree once the averages do; and the averages do at every extended-real input: a channel's sum over its 64 × 64
  positions is the sum over the reshaped row's 4096 entries, and dividing by 4096 is multiplying by 2^-12.
-/
import proofs.«148415_j62569083568766_2_alg».proof.Proof.KernelValue
import proofs.«148415_j62569083568766_2_alg».proof.Proof.ReferenceValue
import proofs.«148415_j62569083568766_2_alg».proof.Proof.Spec
import Idealize.ShloMosaic.PureOps.Reduce

set_option maxRecDepth 16384

noncomputable section

namespace Cert.Bridge

open Idealize.ShloMosaic Idealize.ShloMosaic.ValueIdx Cert.ChannelGate

/-- A position of the four-axis input reduces to channel (b, c) exactly when its first two coordinates are b and c. -/
theorem drop_iff (i : Cert.ReferenceIdeal.S32x512x64x64.Idx) (b : Fin 32) (c : Fin 512) :
    Cert.ReferenceIdeal.Facts₀.reducesTo_S32x512x64x64_S32x512_d2_3.drop i = ix2 b c ↔ (i 0).val = b.val ∧ (i 1).val = c.val := by
  have d0 := Shape.ReducesTo.drop_apply_val_of_eq Cert.ReferenceIdeal.Facts₀.reducesTo_S32x512x64x64_S32x512_d2_3 i 0 0
  have d1 := Shape.ReducesTo.drop_apply_val_of_eq Cert.ReferenceIdeal.Facts₀.reducesTo_S32x512x64x64_S32x512_d2_3 i 1 1
  constructor
  · intro h
    exact ⟨d0.symm.trans (congrArg (fun j : Cert.ReferenceIdeal.S32x512.Idx => (j 0).val) h),
      d1.symm.trans (congrArg (fun j : Cert.ReferenceIdeal.S32x512.Idx => (j 1).val) h)⟩
  · rintro ⟨h0, h1⟩
    funext a
    apply Fin.ext
    match a with
    | ⟨0, _⟩ => exact d0.trans h0
    | ⟨1, _⟩ => exact d1.trans h1

/-- The reference's averages are the kernel's: the pooled array of the input reshaped to rows of 4096. -/
theorem mean_eq (x : FVec Ideal Cert.ReferenceIdeal.S32x512x64x64 .f32) :
    Cert.ReferenceIdeal.Whole.mean x
      = pooled (shapeCast Cert.KernelIdeal.S32x512x4096 x Cert.KernelIdeal.Facts₀.shapeCasts_S32x512x64x64_S32x512x4096) := by
  funext j
  obtain ⟨b, c, rfl⟩ : ∃ (b : Fin 32) (c : Fin 512), j = ix2 b c := ⟨j 0, j 1, eq_ix2 j⟩
  rw [pooled_ix2]
  unfold pooledAt
  show Ideal.div (Ideal.ofBits .f32 0x00000000#32
      + ∑ i ∈ Finset.univ.filter (fun i => Cert.ReferenceIdeal.Facts₀.reducesTo_S32x512x64x64_S32x512_d2_3.drop i = ix2 b c), x i)
    (Ideal.ofBits .f32 0x45800000#32) = _
  rw [mean_law]
  refine congrArg (· * Ideal.ofBits .f32 0x39800000#32) ?_
  rw [Finset.filter_congr (fun i _ => drop_iff i b c), sum_channel x b c]
  exact Finset.sum_congr rfl fun k _ => (cast_rows x _ b c k).symm

/-- The two programs' gates are the same operations of the same shapes. -/
theorem gate_eq (v : FVec Ideal Cert.ReferenceIdeal.S32x512 .f32) (w1 : FVec Ideal Cert.ReferenceIdeal.S32x512 .f32)
    (w2 : FVec Ideal Cert.ReferenceIdeal.S512x32 .f32) :
    Cert.ReferenceIdeal.Whole.gate v w1 w2 = Cert.KernelIdeal.Whole.gate v w1 w2 := rfl

/-- The reference's result is the kernel's, as functions of the three arguments. -/
theorem result_eq (x : FVec Ideal Cert.ReferenceIdeal.S32x512x64x64 .f32) (w1 : FVec Ideal Cert.ReferenceIdeal.S32x512 .f32)
    (w2 : FVec Ideal Cert.ReferenceIdeal.S512x32 .f32) :
    Cert.ReferenceIdeal.Whole.result x w1 w2 = Cert.KernelIdeal.Whole.result x w1 w2 := by
  funext i
  obtain ⟨b, c, h, w, rfl⟩ : ∃ (b : Fin 32) (c : Fin 512) (h w : Fin 64), i = ix4 b c h w := ⟨i 0, i 1, i 2, i 3, eq_ix4 i⟩
  unfold Cert.ReferenceIdeal.Whole.result Cert.KernelIdeal.Whole.result
  rw [mean_eq, gate_eq]
  refine (congrArg (x (ix4 b c h w) * ·) ((spread_apply _ _ b c h w).trans (unit_image_apply _ _ b c))).trans ?_
  refine Eq.symm ((cast_images _ _ b c h w).trans ?_)
  rw [scaled_ix3, cast_rows, rowOf_flat, colOf_flat, column_apply]

end Cert.Bridge

end
-- ==== Proof.lean ====
/-
  A squeeze-and-excite block over x : f32[32, 512, 64, 64] with weights w1 : f32[32, 512], w2 : f32[512, 32]:
  y(b, c, h, w) = x(b, c, h, w) · g(b, c), where g = logistic(relu(v · w1ᵀ) · w2ᵀ) and v(b, c) is the average of
  channel (b, c)'s 4096 entries.

  The kernel computes v in one pipeline over x reshaped to rows of 4096 (row sum times 2^-12), the gate in host
  operations, and the product in a second pipeline over the reshaped input and the gate as a column; the reference
  computes v as the sum over both image axes divided by 4096 and multiplies x by the gate spread over the images.
  Over the extended reals the two results are equal at every input: the average's two spellings agree (a finite sum
  regrouped, and division by the real 4096 against multiplication by its exact reciprocal), the gates are the same
  operations, and the reshapes only rename positions. The precondition is never opened.

  The three frames are the generated ones (the reference's is its generated run with the result dropped); the ideal
  pass rewrote nothing, so the kernel's idealization is its own text and that conjunct is trivial.
-/
import proofs.«148415_j62569083568766_2_alg».proof.Defs
import proofs.«148415_j62569083568766_2_alg».proof.Proof.Gen.Kernel
import proofs.«148415_j62569083568766_2_alg».proof.Proof.Gen.Kernel.Skeleton
import proofs.«148415_j62569083568766_2_alg».proof.Proof.Gen.Kernel.Launch
import proofs.«148415_j62569083568766_2_alg».proof.Proof.Gen.Kernel.Points
import proofs.«148415_j62569083568766_2_alg».proof.Proof.Gen.Kernel.Frame
import proofs.«148415_j62569083568766_2_alg».proof.Proof.Gen.KernelIdeal
import proofs.«148415_j62569083568766_2_alg».proof.Proof.Gen.KernelIdeal.Skeleton
import proofs.«148415_j62569083568766_2_alg».proof.Proof.Gen.KernelIdeal.Launch
import proofs.«148415_j62569083568766_2_alg».proof.Proof.Gen.KernelIdeal.Points
import proofs.«148415_j62569083568766_2_alg».proof.Proof.Gen.KernelIdeal.Frame
import proofs.«148415_j62569083568766_2_alg».proof.Proof.Gen.ReferenceIdeal
import proofs.«148415_j62569083568766_2_alg».proof.Proof.Gen.ReferenceIdeal.Run
import proofs.«148415_j62569083568766_2_alg».proof.Proof.Gen.ReferenceIdeal.Read
import proofs.«148415_j62569083568766_2_alg».proof.Proof.Gen.Pre_finite_inputs
import proofs.«148415_j62569083568766_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- From memories agreeing on the arguments both programs end with the result buffer at ONE function of the arguments:
    the kernel's run gives its function, the reference's run its own, and the two functions are equal. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2.1, (hagree c).2.2]
  exact Cert.Bridge.result_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
